-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S50000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S50000x128 .f32 := Host.absf main_arg6
  let main_cst_6 : FVec F S_ .f32 := constant S_ .f32 0x7F800000#32
  let main_v20 : FVec F S50000x128 .f32 := broadcastInDim S50000x128 ![] bcast_S_S50000x128 main_cst_6
  let main_v21 : IVec S50000x128 1 := cmpf .olt main_v19 main_v20
  let main_c_7 : IVec S_ 1 := constantI S_ 1 1#1
  let main_v22 : IVec S_ 1 := (fun x v => Host.reduce IntOp.andi x v reducesTo_S50000x128_S_d0_1 h_S_) main_v21 main_c_7
  let main_v23 : IVec S_ 1 := andi main_v18 main_v22
  main_v23

def fn {F : FTy → Type} [FloatOps F] (main_arg0 : IVec S800000 32) (main_arg1 : IVec S800000 32) (main_arg2 : FVec F S800000 .f32) (main_arg3 : FVec F S50000x128 .f32) (main_arg4 : FVec F S128x128 .f32) (main_arg5 : FVec F S128 .f32) (main_arg6 : FVec F S50000x128 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 25
  | .vmem => 8
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .i1⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer's epilogue as ONE function of four arrays, index by index, over the extended reals.

  For an aggregated feature array `H` (nodes × 128), a weight matrix `W` (128 × 128), a bias `b` (128) and an
  array `u` of uniform draws (nodes × 128), entry (r, c) of the result is

      max ((Σ_k H[r, k] · W[k, c] + b[c]) · keepScale (u[r, c])) 0,

  where `keepScale x` is 2 when x ≥ 1/2 and 0 otherwise: inverted dropout with keep probability 1/2, then the
  rectifier. The two programs spell `keepScale` differently — one selects between the words 2.0 and 0.0, the other
  divides the comparison's indicator (0 or 1) by the word 0.5 —, and `indicator_div_half` is the law that joins
  them: 1 / (1/2) = 2 and 0 / (1/2) = 0 on the extended reals. No other arithmetic law is used, and none that needs
  the arrays to be finite.
-/
import Idealize.ShloMosaic.PureOps.Ideal
import Idealize.ShloMosaic.PureOps.Ideal.Laws
import Idealize.ShloMosaic.Lib.ValueIdx

noncomputable section

namespace Cert.GcnEpilogue

open Idealize.ShloMosaic Idealize.ShloMosaic.ValueIdx

/-- nodes × features, features × features, features. -/
abbrev SNxD : Shape := ⟨2, ![50000, 128]⟩
abbrev SDxD : Shape := ⟨2, ![128, 128]⟩
abbrev SD : Shape := ⟨1, ![128]⟩

/-! ## The three float words the programs spell -/

/-- The word 0.5 denotes the real 1/2. -/
theorem half_val : Ideal.ofBits .f32 0x3F000000#32 = ((1 / 2 : ℝ) : EReal) := by
  simp [Ideal.ofBits, Ideal.ieee, -EReal.coe_mul]; norm_num

/-- The word 2.0 denotes the real 2. -/
theorem two_val : Ideal.ofBits .f32 0x40000000#32 = ((2 : ℝ) : EReal) := by
  simp [Ideal.ofBits, Ideal.ieee, -EReal.coe_mul]; norm_num

/-! ## The dropout scale -/

/-- The scale a draw `x` gives its entry: the word 2.0 where `x ≥ 0.5`, the word 0.0 elsewhere (a selection on the
    comparison's bit). -/
def keepScale (x : EReal) : EReal :=
  Scalar.select (Ideal.cmp .oge x (Ideal.ofBits .f32 0x3F000000#32)) (Ideal.ofBits .f32 0x40000000#32)
    (Ideal.ofBits .f32 0x00000000#32)

/-- The other spelling: the comparison's bit read as the number 0 or 1, divided by the word 0.5, is the same scale:
    1 / (1/2) = 2 and 0 / (1/2) = 0. -/
theorem indicator_div_half (x : EReal) :
    Ideal.div (((Ideal.cmp .oge x (Ideal.ofBits .f32 0x3F000000#32)).toNat : ℝ) : EReal) (Ideal.ofBits .f32 0x3F000000#32)
      = keepScale x := by
  unfold keepScale
  rcases BitVec.eq_zero_or_eq_one (Ideal.cmp .oge x (Ideal.ofBits .f32 0x3F000000#32)) with h | h
  · rw [h, select_zero, Ideal.ofBits_zero_f32, half_val, Ideal.div_coe (by norm_num : (1 / 2 : ℝ) ≠ 0)]
    simp
  · rw [h, select_one, two_val, half_val, Ideal.div_coe (by norm_num : (1 / 2 : ℝ) ≠ 0)]
    rw [← EReal.coe_mul]
    norm_num

/-! ## The layer -/

/-- Entry (r, c) of the epilogue: the row r of `H` against the column c of `W`, plus `b[c]`, scaled by the draw at
    (r, c), rectified at the word 0.0. -/
def layer (H : SNxD.Idx → EReal) (W : SDxD.Idx → EReal) (b : SD.Idx → EReal) (u : SNxD.Idx → EReal) : SNxD.Idx → EReal :=
  fun i => max ((∑ k : Fin 128, H (ix2 (i 0) k) * W (ix2 k (i 1)) + b (ix1 (i 1))) * keepScale (u i))
    (Ideal.ofBits .f32 0x00000000#32)

/-- The layer at the index with coordinates (r, c). -/
theorem layer_apply (H : SNxD.Idx → EReal) (W : SDxD.Idx → EReal) (b : SD.Idx → EReal) (u : SNxD.Idx → EReal)
    (r : Fin 50000) (c : Fin 128) :
    layer H W b u (ix2 r c)
      = max ((∑ k : Fin 128, H (ix2 r k) * W (ix2 k c) + b (ix1 c)) * keepScale (u (ix2 r c)))
          (Ideal.ofBits .f32 0x00000000#32) := rfl

end Cert.GcnEpilogue

end
-- ==== Proof.Payload.lean ====
/-
  One block of the kernel's output, entry by entry.

  The body loads a 5000 × 128 block `x0` of the aggregated features, the whole 128 × 128 weight matrix `x1`, the
  bias as one row `x2` (1 × 128) and the matching 5000 × 128 block `x3` of draws, and stores one 5000 × 128 value.
  Read at (p, q) over the extended reals that value is

      max ((Σ_k x0[p, k] · x1[k, q] + x2[0, q]) · keepScale (x3[p, q])) 0 :

  the two roundings to the narrow format are identities there, the matrix product into a zero accumulator is the
  plain sum over the contracted axis, the bias row is repeated down the block, and the selection between the words
  2.0 and 0.0 on `x3 ≥ 0.5` is `keepScale` as defined.
-/
import proofs.«110380_j80753975099751_1_alg».proof.Proof.Gen.KernelIdeal.Skeleton
import proofs.«110380_j80753975099751_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.GcnEpilogue.Block

open Cert.KernelIdeal Cert.KernelIdeal.Gen Cert.GcnEpilogue
open Idealize.ShloMosaic Idealize.ShloMosaic.ValueIdx

/-! ## The product: row p of the left block against column q of the right matrix -/

/-- The left operand's index at output (·, ·) and contraction index k: its row is the output's row, -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- and its column is k. -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

/-- The right operand's row is k, -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

/-- and its column is the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into a zero accumulator, at (p, q): the sum over k of left[p, k] · right[k, q]. -/
theorem product_entry (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## The bias row, repeated down the block -/

/-- The 1 × 128 row, cast to its own shape and broadcast to 5000 × 128, reads at (p, q) the row's entry q. -/
theorem bias_entry (x2 : Vec Ideal S1x128 .f32) (p : Fin 5000) (q : Fin 128) :
    broadcastTo S5000x128 (shapeCast S1x128 x2 shapeCasts_S1x128_S1x128) broadcasts_S1x128_S5000x128 (ix2 p q)
      = x2 (ix2 (0 : Fin 1) q) := by
  rw [shapeCast_self]
  exact broadcastTo_1b_ab_apply x2 broadcasts_S1x128_S5000x128 p q

/-! ## The stored value at an entry -/

/-- The body's one stored value at (p, q). -/
theorem stored_entry (x0 : Vec Ideal S5000x128 .f32) (x1 : Vec Ideal S128x128 .f32) (x2 : Vec Ideal S1x128 .f32)
    (x3 : Vec Ideal S5000x128 .f32) (p : Fin 5000) (q : Fin 128) :
    k0_pay1 x0 x1 x2 x3 (ix2 p q)
      = max ((∑ k : Fin 128, x0 (ix2 p k) * x1 (ix2 k q) + x2 (ix2 (0 : Fin 1) q)) * keepScale (x3 (ix2 p q)))
          (Ideal.ofBits .f32 0x00000000#32) := by
  unfold k0_pay1
  refine (maximumf_apply _ _ _).trans ?_
  refine congrArg₂ max ?_ rfl
  refine (mulf_apply _ _ _).trans ?_
  refine congrArg₂ (· * ·) ?_ rfl
  refine (addf_apply _ _ _).trans ?_
  refine congrArg₂ (· + ·) ?_ (bias_entry x2 p q)
  rw [shapeCast_self]
  exact product_entry _ _ p q

/-! ## The stored value is the layer's entry, when the blocks are the arrays' rows -/

/-- Let the loaded blocks agree with arrays `H`, `W`, `b`, `U` as follows, for a block index `y` and an array index
    `i`: row `y 0` of the feature block is row `i 0` of `H`; column `y 1` of the weight block is column `i 1` of `W`;
    entry `y 1` of the bias row is `b` at `i 1`; the draw block at `y` is `U` at `i`. Then the stored value at `y` is
    the layer of `H`, `W`, `b`, `U` at `i`. -/
theorem stored_is_layer (H U : SNxD.Idx → EReal) (W : SDxD.Idx → EReal) (b : SD.Idx → EReal)
    (x0 x3 : Vec Ideal S5000x128 .f32) (x1 : Vec Ideal S128x128 .f32) (x2 : Vec Ideal S1x128 .f32)
    (y : S5000x128.Idx) (i : SNxD.Idx)
    (h0 : ∀ k : Fin 128, x0 (ix2 (y 0) k) = H (ix2 (i 0) k))
    (h1 : ∀ k : Fin 128, x1 (ix2 k (y 1)) = W (ix2 k (i 1)))
    (h2 : x2 (ix2 (0 : Fin 1) (y 1)) = b (ix1 (i 1)))
    (h3 : x3 y = U i) :
    k0_pay1 x0 x1 x2 x3 y = layer H W b U i := by
  refine (congrArg (k0_pay1 x0 x1 x2 x3) (eq_ix2 y)).trans ?_
  refine (stored_entry x0 x1 x2 x3 (y 0) (y 1)).trans ?_
  unfold layer
  have h3' : x3 (ix2 (y 0) (y 1)) = U i := (congrArg x3 (eq_ix2 y)).symm.trans h3
  exact congrArg₂ max (congrArg₂ (· * ·)
    (congrArg₂ (· + ·) (Finset.sum_congr rfl fun k _ => congrArg₂ (· * ·) (h0 k) (h1 k)) h2)
    (congrArg keepScale h3')) rfl

end Cert.GcnEpilogue.Block

end
-- ==== Proof.Blocks.lean ====
/-
  From the blocks to the whole array.

  The grid has ten points; at point t the kernel reads rows 5000·t … 5000·t + 4999 of the aggregated features and of
  the draws, the whole weight matrix and the whole bias row, and writes rows 5000·t … 5000·t + 4999 of the output. So
  what point t writes back is block t of ONE function of the arrays as the region finds them — `result`, the layer
  (Spec) of the aggregated features, the weights, the bias and the draws —, the ten blocks cover the output array
  (row r lies in block r / 5000), and the array after the run is `result`.

  Each geometric fact (where a block's entry sits in its array) is stated for an ARBITRARY array and an arbitrary
  block, and only then used at the arrays of the run: the aggregated features are a sum over 800000 edges, and no
  step here ever needs to look inside them.
-/
import proofs.«110380_j80753975099751_1_alg».proof.Proof.Gen.KernelIdeal.Value
import proofs.«110380_j80753975099751_1_alg».proof.Proof.Payload
import proofs.«110380_j80753975099751_1_alg».proof.Proof.Spec
import Idealize.ShloMosaic.Lib.Pipeline.Value
import Idealize.ShloMosaic.Lib.ValueLayout
import Idealize.ShloMosaic.Lib.StableHlo.Run

noncomputable section

namespace Cert.GcnEpilogue.Array

open Cert.KernelIdeal Cert.KernelIdeal.Gen Cert.GcnEpilogue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Where each window's block sits at point t -/

/-- Decided over the ten points: the feature, draw and output windows are at block row t, column block 0; the
    weight and bias windows stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## A block's entry in its array, for any array -/

/-- Entry y of the feature window's block at point t is the array's entry (5000·t + y 0, y 1). -/
theorem feature_block (c : Dev nD) (t : Fin cfg0.N) (A : Buf (Elt Ideal) ((c : Thread nD τ).loc main_v12))
    (y : S5000x128.Idx) (i : S50000x128.Idx)
    (h0 : (i 0).val = t.val * 5000 + (y 0).val) (h1 : (i 1).val = (y 1).val) :
    ((cfg0.win 0).blk t).view.read (Elt Ideal) A y = A i := by
  obtain ⟨e0, e1, -⟩ := block_index t
  show A (((cfg0.win 0).blk t).view.emb y) = A i
  refine congrArg A (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight window's block is its whole array at every point. -/
theorem weight_block (c : Dev nD) (t : Fin cfg0.N) (A : Buf (Elt Ideal) ((c : Thread nD τ).loc main_arg4))
    (y i : S128x128.Idx) (h0 : (i 0).val = (y 0).val) (h1 : (i 1).val = (y 1).val) :
    ((cfg0.win 1).blk t).view.read (Elt Ideal) A y = A i := by
  obtain ⟨-, -, e0, e1, -⟩ := block_index t
  show A (((cfg0.win 1).blk t).view.emb y) = A i
  refine congrArg A (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- The bias window's block is its whole one-row array at every point. -/
theorem bias_block (c : Dev nD) (t : Fin cfg0.N) (A : Buf (Elt Ideal) ((c : Thread nD τ).loc main_v13))
    (y i : S1x128.Idx) (h0 : (i 0).val = (y 0).val) (h1 : (i 1).val = (y 1).val) :
    ((cfg0.win 2).blk t).view.read (Elt Ideal) A y = A i := by
  obtain ⟨-, -, -, -, e0, e1, -⟩ := block_index t
  show A (((cfg0.win 2).blk t).view.emb y) = A i
  refine congrArg A (funext fun a => Fin.ext ?_)
  match a with
  | ⟨0, _⟩ => show win0_2.index t (0 : Fin 2) * 1 + 1 * (y 0).val = (i 0).val; omega
  | ⟨1, _⟩ => show win0_2.index t (1 : Fin 2) * 128 + 1 * (y 1).val = (i 1).val; omega

/-- Entry y of the draw window's block at point t is the array's entry (5000·t + y 0, y 1). -/
theorem draw_block (c : Dev nD) (t : Fin cfg0.N) (A : Buf (Elt Ideal) ((c : Thread nD τ).loc main_arg6))
    (y : S5000x128.Idx) (i : S50000x128.Idx)
    (h0 : (i 0).val = t.val * 5000 + (y 0).val) (h1 : (i 1).val = (y 1).val) :
    ((cfg0.win 3).blk t).view.read (Elt Ideal) A y = A i := by
  obtain ⟨-, -, -, -, -, -, e0, e1, -⟩ := block_index t
  show A (((cfg0.win 3).blk t).view.emb y) = A i
  refine congrArg A (funext fun a => Fin.ext ?_)
  match a with
  | ⟨0, _⟩ => show win0_3.index t (0 : Fin 2) * 5000 + 1 * (y 0).val = (i 0).val; omega
  | ⟨1, _⟩ => show win0_3.index t (1 : Fin 2) * 128 + 1 * (y 1).val = (i 1).val; omega

/-- A block-shaped value `P`, written back at point t, is block t of an array `R` as soon as its entry y is `R`'s
    entry (5000·t + y 0, y 1), for every y. -/
theorem written_block (c : Dev nD) (t : Fin cfg0.N) (P : Vec Ideal S5000x128 .f32)
    (R : Buf (Elt Ideal) ((c : Thread nD τ).loc main_v14))
    (h : ∀ (y : S5000x128.Idx) (i : S50000x128.Idx), (i 0).val = t.val * 5000 + (y 0).val → (i 1).val = (y 1).val →
      P y = R i) :
    (cfg0.win 4).cut (grid0.coords t) P = ((cfg0.win 4).blk t).view.read (Elt Ideal) R := by
  obtain ⟨-, -, -, -, -, -, -, -, e0, e1⟩ := block_index t
  funext j
  show P ((cfg0.win 4).xinj (grid0.coords t) j) = R (((cfg0.win 4).blk t).view.emb j)
  refine h _ _ ?_ ?_
  · show win0_4.index t (0 : Fin 2) * 5000 + 1 * (j 0).val = t.val * 5000 + (j 0).val; omega
  · show win0_4.index t (1 : Fin 2) * 128 + 1 * (j 1).val = (j 1).val; omega

/-! ## The arrays the region finds -/

/-- The feature window's array is the buffer the host's aggregation wrote. -/
theorem features_array (c : Dev nD) : V m c (Pipeline.arrRef spec0 0) = V m c main_v12 := rfl

/-- The bias window's array is the buffer the host's reshape wrote. -/
theorem bias_array (c : Dev nD) : V m c (Pipeline.arrRef spec0 2) = V m c main_v13 := rfl

/-- The host reshapes the 128 biases into one row before the region: entry (0, q) of the row is bias q. -/
theorem bias_row (c : Dev nD) (q : Fin 128) :
    V m c main_v13 (ix2 (0 : Fin 1) q) = m ((c : Thread nD τ).loc main_arg5) (ix1 q) := by
  have e : (V m c main_v13 : S1x128.Idx → EReal)
      = shapeCast S1x128 (m ((c : Thread nD τ).loc main_arg5) : S128.Idx → EReal) shapeCasts_S128_S1x128 := by
    dsimp only [Gen.V, Gen.hostOps0]; after_results; rfl
  rw [e]
  exact shapeCast_a_1a_apply _ shapeCasts_S128_S1x128 0 q

/-! ## Each input block of the run, read where the output's block says -/

theorem read_features (c : Dev nD) (t : Fin cfg0.N) (y : S5000x128.Idx) (i : S50000x128.Idx)
    (h0 : (i 0).val = t.val * 5000 + (y 0).val) (h1 : (i 1).val = (y 1).val) :
    iblk m c 0 t y = V m c main_v12 i := by
  unfold iblk
  rw [features_array]
  exact feature_block c t (V m c main_v12) y i h0 h1

theorem read_weights (c : Dev nD) (t : Fin cfg0.N) (y i : S128x128.Idx)
    (h0 : (i 0).val = (y 0).val) (h1 : (i 1).val = (y 1).val) :
    iblk m c 1 t y = m ((c : Thread nD τ).loc main_arg4) i := by
  unfold iblk
  rw [show V m c (Pipeline.arrRef spec0 1) = m ((c : Thread nD τ).loc main_arg4) from V_main_arg4 m c]
  exact weight_block c t (m ((c : Thread nD τ).loc main_arg4)) y i h0 h1

theorem read_bias (c : Dev nD) (t : Fin cfg0.N) (y : S1x128.Idx) (q : Fin 128) (h1 : q.val = (y 1).val) :
    iblk m c 2 t y = m ((c : Thread nD τ).loc main_arg5) (ix1 q) := by
  unfold iblk
  rw [bias_array, ← bias_row m c q]
  refine bias_block c t (V m c main_v13) y (ix2 (0 : Fin 1) q) ?_ h1
  have hy : (y 0).val < 1 := (y 0).isLt
  show (0 : Nat) = (y 0).val
  omega

theorem read_draws (c : Dev nD) (t : Fin cfg0.N) (y : S5000x128.Idx) (i : S50000x128.Idx)
    (h0 : (i 0).val = t.val * 5000 + (y 0).val) (h1 : (i 1).val = (y 1).val) :
    iblk m c 3 t y = m ((c : Thread nD τ).loc main_arg6) i := by
  unfold iblk
  rw [show V m c (Pipeline.arrRef spec0 3) = m ((c : Thread nD τ).loc main_arg6) from V_main_arg6 m c]
  exact draw_block c t (m ((c : Thread nD τ).loc main_arg6)) y i h0 h1

/-! ## The output array as one function -/

/-- The layer of the aggregated features (as the host operations before the region leave them), the weights, the
    bias and the draws. -/
def result (c : Dev nD) : S50000x128.Idx → EReal :=
  layer (V m c main_v12) (m ((c : Thread nD τ).loc main_arg4)) (m ((c : Thread nD τ).loc main_arg5))
    (m ((c : Thread nD τ).loc main_arg6))

/-- The value the body stores at point t, at entry y, is `result` at (5000·t + y 0, y 1). -/
theorem stored_is_result (c : Dev nD) (t : Fin cfg0.N) (y : S5000x128.Idx) (i : S50000x128.Idx)
    (h0 : (i 0).val = t.val * 5000 + (y 0).val) (h1 : (i 1).val = (y 1).val) :
    k0_pay1 (iblk m c 0 t) (iblk m c 1 t) (iblk m c 2 t) (iblk m c 3 t) y = result m c i := by
  unfold result
  exact Block.stored_is_layer (V m c main_v12) (m ((c : Thread nD τ).loc main_arg6))
    (m ((c : Thread nD τ).loc main_arg4)) (m ((c : Thread nD τ).loc main_arg5))
    (iblk m c 0 t) (iblk m c 3 t) (iblk m c 1 t) (iblk m c 2 t) y i
    (fun k => read_features m c t (ix2 (y 0) k) (ix2 (i 0) k) h0 rfl)
    (fun k => read_weights m c t (ix2 k (y 1)) (ix2 k (i 1)) rfl h1)
    (read_bias m c t (ix2 (0 : Fin 1) (y 1)) (i 1) h1)
    (read_draws m c t y i h0 h1)

/-! ## What point t writes back -/

/-- Point t writes back block t of `result`. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero origin]
  simp only [View.ld_unit_zero (S := S5000x128) origin, View.ld_unit_zero (S := S128x128) origin,
    View.ld_unit_zero (S := S1x128) origin]
  exact written_block c t (k0_pay1 (iblk m c 0 t) (iblk m c 1 t) (iblk m c 2 t) (iblk m c 3 t)) (result m c)
    (fun y i h0 h1 => stored_is_result m c t y i h0 h1)

/-! ## The ten blocks cover the output -/

/-- An index is in point t's block iff each coordinate is in the block's range on its axis. -/
theorem mem_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v14).slice (win0_4.rect t)).set ↔ _
  rw [View.set_slice_whole, Rect.mem_set_unit]
  exact Iff.rfl

/-- Row r of the output lies in the block of point r / 5000. -/
theorem covered (i : S50000x128.Idx) :
    ∃ t : Fin cfg0.N, (cfg0.win 4).flush t = true ∧ i ∈ ((cfg0.win 4).blk t).view.set := by
  have hN : grid0.N = 10 := N_0
  have hi0 : (i 0).val < 50000 := (i 0).isLt
  have hi1 : (i 1).val < 128 := (i 1).isLt
  let t : Fin cfg0.N := ⟨(i 0).val / 5000, by show (i 0).val / 5000 < grid0.N; omega⟩
  obtain ⟨-, -, -, -, -, -, -, -, e0, e1⟩ := block_index t
  have ht : t.val = (i 0).val / 5000 := rfl
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-! ## The array after the run, and the run -/

/-- The output array after the run is `result`. -/
theorem final (c : Dev nD) : (dats m 0 c).arrAt 4 cfg0.N = result m c :=
  (dats m 0 c).arrAt_eq_of_cover 4 (result m c) (fun t _ => flushed_eq m c t) covered

/-- Every weakly fair execution of the kernel's program terminates with the output array at `result` and the
    argument arrays unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.GcnEpilogue.Array

end
-- ==== Proof.Reference.lean ====
/-
  The reference computes the same layer.

  Its program aggregates the features with the same host operations as the kernel's, then forms
  (H · W + b) · (indicator (u ≥ 0.5) / 0.5) and rectifies it. Read at (r, c): the product is the sum over k of
  H[r, k] · W[k, c], the bias broadcast down the rows gives b[c], the indicator divided by the word 0.5 is
  `keepScale` (Spec, `indicator_div_half`), and the rectifier is the maximum with the word 0.0. So the last stage is
  the layer of the aggregated features `H`, whatever `H` is: the aggregation is never opened.
-/
import proofs.«110380_j80753975099751_1_alg».proof.Proof.Gen.ReferenceIdeal.Read
import proofs.«110380_j80753975099751_1_alg».proof.Proof.Spec
import Idealize.ShloMosaic.Lib.ValueIdx

noncomputable section

namespace Cert.GcnEpilogue.Ref

open Cert.ReferenceIdeal Cert.ReferenceIdeal.Read Cert.GcnEpilogue
open Idealize.ShloMosaic Idealize.ShloMosaic.ValueIdx

/-- The reference's last stage is the layer of its aggregated features, its weights, its bias and its draws. -/
theorem last_stage_is_layer (x0 x1 : (⟨S800000, .i32⟩ : BufTy).Contents (Elt Ideal))
    (x2 : (⟨S800000, .f32⟩ : BufTy).Contents (Elt Ideal)) (x3 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S50000x128, .f32⟩ : BufTy).Contents (Elt Ideal)) :
    val_main_v23 (F := Ideal) x0 x1 x2 x3 x4 x5 x6 = layer (val_main_v12 (F := Ideal) x0 x1 x2 x3) x4 x5 x6 := by
  funext i
  obtain ⟨r, c, rfl⟩ : ∃ (r : Fin 50000) (c : Fin 128), i = ix2 r c := ⟨i 0, i 1, eq_ix2 i⟩
  have eL : ∀ k : Fin 128, lidx_main_v13 (ix2 r c) k = ix2 r k := fun k =>
    funext fun a => Fin.ext (by match a with | ⟨0, _⟩ => rfl | ⟨1, _⟩ => rfl)
  have eR : ∀ k : Fin 128, ridx_main_v13 (ix2 r c) k = ix2 k c := fun k =>
    funext fun a => Fin.ext (by match a with | ⟨0, _⟩ => rfl | ⟨1, _⟩ => rfl)
  have eB : idx_main_v14 (idx_main_v15 (ix2 r c)) = ix1 c :=
    funext fun a => Fin.ext (by match a with | ⟨0, _⟩ => rfl)
  rw [layer_apply, val_main_v23_apply, val_main_v22_apply, val_main_v16_apply, val_main_v13_apply, val_main_v15_apply,
    val_main_v14_apply, val_main_v21_apply, val_main_v19_apply, val_main_v18_apply, val_main_v17_apply,
    val_main_cst_1_apply, val_main_v20_apply, val_main_cst_2_apply, val_main_call0_v0_apply, val_main_call0_cst_apply]
  simp only [eL, eR, eB, Ideal.maximumf_def, Ideal.mulf_def, Ideal.addf_def, Ideal.hostDivf_def, Ideal.ofBits_def]
  exact congrArg₂ max (congrArg₂ (· * ·) rfl (indicator_div_half (x6 (ix2 r c)))) rfl

end Cert.GcnEpilogue.Ref

end
-- ==== Proof.Head.lean ====
/-
  The aggregated features.

  Both programs aggregate the features with the same host operations: column indices below zero are wrapped by
  adding 50000; row `cols[e]` of the feature matrix is gathered for every edge e and scaled by `vals[e]`; the scaled
  rows are added into row `rows[e]` of a zero matrix. `aggregate` names that term once. It is what the region finds
  in its first window's array, and it is the reference's stage of the same name; the sum over the edges is never
  opened.
-/
import proofs.«110380_j80753975099751_1_alg».proof.Proof.Gen.KernelIdeal.Frame
import proofs.«110380_j80753975099751_1_alg».proof.Proof.Gen.ReferenceIdeal.Read
import Idealize.ShloMosaic.Lib.StableHlo.Run

noncomputable section

namespace Cert.GcnEpilogue.Head

open Cert.KernelIdeal Cert.KernelIdeal.Gen
open Idealize.ShloMosaic Idealize.ShloMosaic.TcCoe Idealize.SL.Sem

/-- The aggregation A · X of a feature matrix `X` over the edges (rows[e] ← cols[e], weight vals[e]). -/
def aggregate (rows cols : (⟨S800000, .i32⟩ : BufTy).Contents (Elt Ideal))
    (vals : (⟨S800000, .f32⟩ : BufTy).Contents (Elt Ideal)) (X : (⟨S50000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 rows)
    (mulf (broadcastInDim S800000x128 ![0, 1] bcast_S800000x1_S800000x128_0_1
        (broadcastInDim S800000x1 ![0] bcast_S800000_S800000x1_0 vals))
      (Host.gather gather_S50000x128_S800000x1_S800000x128_1_0_n_n_0_1_1128 X
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- The reference's aggregation stage is the same term. -/
theorem reference_stage (rows cols : (⟨S800000, .i32⟩ : BufTy).Contents (Elt Ideal))
    (vals : (⟨S800000, .f32⟩ : BufTy).Contents (Elt Ideal)) (X : (⟨S50000x128, .f32⟩ : BufTy).Contents (Elt Ideal)) :
    Cert.ReferenceIdeal.Read.val_main_v12 (F := Ideal) rows cols vals X = aggregate rows cols vals X := rfl

/-- The region finds the aggregation of the argument arrays in its feature window's array. -/
theorem region_finds (m : (ℓ : Loc nD τ sig) → Buf (Elt Ideal) ℓ) (c : Dev nD) :
    (V m c main_v12 : S50000x128.Idx → EReal)
      = aggregate (m ((c : Thread nD τ).loc main_arg0)) (m ((c : Thread nD τ).loc main_arg1))
          (m ((c : Thread nD τ).loc main_arg2)) (m ((c : Thread nD τ).loc main_arg3)) := by
  dsimp only [Gen.V, Gen.hostOps0]; after_results; rfl

end Cert.GcnEpilogue.Head

end
-- ==== Proof.lean ====
/-
  A graph-convolution layer's epilogue, fused into one kernel, against its plain reference.

  Both programs first aggregate the features over the graph's edges with the same host operations. The kernel then
  computes, block of 5000 rows by block, max ((H · W + b) · keepScale (u)) 0, with the two matrix operands rounded
  to a narrow format on the way into the product and the dropout scale selected between the words 2.0 and 0.0; the
  reference computes relu ((H · W + b) · (indicator (u ≥ 0.5) / 0.5)) on whole arrays. Over the extended reals the
  roundings are identities, the block product is the plain sum over the contracted axis, and the two spellings of
  the dropout scale agree (1 / (1/2) = 2, 0 / (1/2) = 0): both results are the one function `layer` (Proof/Spec.lean)
  of the aggregated features, the weights, the bias and the draws. No step needs the inputs to be finite.

  Proof/Spec.lean      the layer as one function, and the law joining the two dropout scales
  Proof/Payload.lean   one stored block of the kernel, entry by entry
  Proof/Blocks.lean    from the ten blocks to the whole output array; the kernel's run
  Proof/Reference.lean the reference's last stage is the layer
  Proof/Head.lean      the aggregated features are the same term in both programs
-/
import proofs.«110380_j80753975099751_1_alg».proof.Defs
import proofs.«110380_j80753975099751_1_alg».proof.Proof.Gen.Kernel
import proofs.«110380_j80753975099751_1_alg».proof.Proof.Gen.Kernel.Frame
import proofs.«110380_j80753975099751_1_alg».proof.Proof.Gen.KernelIdeal
import proofs.«110380_j80753975099751_1_alg».proof.Proof.Gen.KernelIdeal.Frame
import proofs.«110380_j80753975099751_1_alg».proof.Proof.Gen.KernelIdeal.Value
import proofs.«110380_j80753975099751_1_alg».proof.Proof.Gen.ReferenceIdeal
import proofs.«110380_j80753975099751_1_alg».proof.Proof.Gen.ReferenceIdeal.Run
import proofs.«110380_j80753975099751_1_alg».proof.Proof.Gen.ReferenceIdeal.Read
import proofs.«110380_j80753975099751_1_alg».proof.Proof.Gen.Pre_finite_inputs
import proofs.«110380_j80753975099751_1_alg».proof.Proof.Spec
import proofs.«110380_j80753975099751_1_alg».proof.Proof.Blocks
import proofs.«110380_j80753975099751_1_alg».proof.Proof.Reference
import proofs.«110380_j80753975099751_1_alg».proof.Proof.Head
import Idealize.ShloMosaic.Adequacy
import Idealize.ShloMosaic.Init

noncomputable section

namespace Cert.Proof

open Idealize.ShloMosaic Idealize.SL.Sem Cert.GcnEpilogue

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the layer of the aggregated features, the
    weights, the bias and the draws: the kernel's output array by the blocks (`Array.run`), the reference's result
    by its last stage (`Ref.last_stage_is_layer`), and the aggregated features are one term (`Head`). -/
theorem algebraic : Cert.algebraic_KernelIdeal_ReferenceIdeal := by
  intro m ρ m' ρ' _ hagree
  refine ⟨fun c => Array.result m c, Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Ref.last_stage_is_layer, Head.reference_stage,
    (hagree c).1, (hagree c).2.1, (hagree c).2.2.1, (hagree c).2.2.2.1, (hagree c).2.2.2.2.1,
    (hagree c).2.2.2.2.2.1, (hagree c).2.2.2.2.2.2]
  show _ = Array.result m c
  unfold Array.result
  rw [Head.region_finds m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
